-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S3x128x128 .f32) (main_arg3 : FVec F S3x128 .f32) (main_arg4 : FVec F S3x128x128 .f32) (main_arg5 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩

abbrev nBuf : Space → Nat
  | .hbm => 85
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S3x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S50000x128, .f32⟩
  | .hbm, ⟨24, _⟩ => ⟨S1x128x128, .f32⟩
  | .hbm, ⟨25, _⟩ => ⟨S128x128, .f32⟩
  | .hbm, ⟨26, _⟩ => ⟨S1x128, .f32⟩
  | .hbm, ⟨27, _⟩ => ⟨S128, .f32⟩
  | .hbm, ⟨28, _⟩ => ⟨S1x128x128, .f32⟩
  | .hbm, ⟨29, _⟩ => ⟨S128x128, .f32⟩
  | .hbm, ⟨30, _⟩ => ⟨S1x128, .f32⟩
  | .hbm, ⟨31, _⟩ => ⟨S128, .f32⟩
  | .hbm, ⟨32, _⟩ => ⟨S1x128, .f32⟩
  | .hbm, ⟨33, _⟩ => ⟨S1x128, .f32⟩
  | .hbm, ⟨34, _⟩ => ⟨S50000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x128, .f32⟩
  | .hbm, ⟨49, _⟩ => ⟨S1x128x128, .f32⟩
  | .hbm, ⟨50, _⟩ => ⟨S128x128, .f32⟩
  | .hbm, ⟨51, _⟩ => ⟨S1x128, .f32⟩
  | .hbm, ⟨52, _⟩ => ⟨S128, .f32⟩
  | .hbm, ⟨53, _⟩ => ⟨S1x128x128, .f32⟩
  | .hbm, ⟨54, _⟩ => ⟨S128x128, .f32⟩
  | .hbm, ⟨55, _⟩ => ⟨S1x128, .f32⟩
  | .hbm, ⟨56, _⟩ => ⟨S128, .f32⟩
  | .hbm, ⟨57, _⟩ => ⟨S1x128, .f32⟩
  | .hbm, ⟨58, _⟩ => ⟨S1x128, .f32⟩
  | .hbm, ⟨59, _⟩ => ⟨S50000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S50000x128, .f32⟩
  | .hbm, ⟨74, _⟩ => ⟨S1x128x128, .f32⟩
  | .hbm, ⟨75, _⟩ => ⟨S128x128, .f32⟩
  | .hbm, ⟨76, _⟩ => ⟨S1x128, .f32⟩
  | .hbm, ⟨77, _⟩ => ⟨S128, .f32⟩
  | .hbm, ⟨78, _⟩ => ⟨S1x128x128, .f32⟩
  | .hbm, ⟨79, _⟩ => ⟨S128x128, .f32⟩
  | .hbm, ⟨80, _⟩ => ⟨S1x128, .f32⟩
  | .hbm, ⟨81, _⟩ => ⟨S128, .f32⟩
  | .hbm, ⟨82, _⟩ => ⟨S1x128, .f32⟩
  | .hbm, ⟨83, _⟩ => ⟨S1x128, .f32⟩
  | .hbm, ⟨84, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_1 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_4 : Ref sig .tc := ⟨.hbm, 60, rfl⟩
abbrev main_v48 : Ref sig .tc := ⟨.hbm, 61, rfl⟩
abbrev main_v49 : Ref sig .tc := ⟨.hbm, 62, rfl⟩
abbrev main_c_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S3x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S50000x128, .f32⟩
  | .hbm, ⟨24, _⟩ => ⟨S1x128x128, .f32⟩
  | .hbm, ⟨25, _⟩ => ⟨S128x128, .f32⟩
  | .hbm, ⟨26, _⟩ => ⟨S50000x128, .f32⟩
  | .hbm, ⟨27, _⟩ => ⟨S1x128, .f32⟩
  | .hbm, ⟨28, _⟩ => ⟨S128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S1x128x128, .f32⟩
  | .hbm, ⟨36, _⟩ => ⟨S128x128, .f32⟩
  | .hbm, ⟨37, _⟩ => ⟨S50000x128, .f32⟩
  | .hbm, ⟨38, _⟩ => ⟨S1x128, .f32⟩
  | .hbm, ⟨39, _⟩ => ⟨S128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x128, .f32⟩
  | .hbm, ⟨60, _⟩ => ⟨S1x128x128, .f32⟩
  | .hbm, ⟨61, _⟩ => ⟨S128x128, .f32⟩
  | .hbm, ⟨62, _⟩ => ⟨S50000x128, .f32⟩
  | .hbm, ⟨63, _⟩ => ⟨S1x128, .f32⟩
  | .hbm, ⟨64, _⟩ => ⟨S128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S1x128x128, .f32⟩
  | .hbm, ⟨72, _⟩ => ⟨S128x128, .f32⟩
  | .hbm, ⟨73, _⟩ => ⟨S50000x128, .f32⟩
  | .hbm, ⟨74, _⟩ => ⟨S1x128, .f32⟩
  | .hbm, ⟨75, _⟩ => ⟨S128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x128, .f32⟩
  | .hbm, ⟨91, _⟩ => ⟨S_, .f32⟩
  | .hbm, ⟨92, _⟩ => ⟨S50000x128, .f32⟩
  | .hbm, ⟨93, _⟩ => ⟨S800000x1, .i32⟩
  | .hbm, ⟨94, _⟩ => ⟨S50000x128, .f32⟩
  | .hbm, ⟨95, _⟩ => ⟨S50000x128, .f32⟩
  | .hbm, ⟨96, _⟩ => ⟨S1x128x128, .f32⟩
  | .hbm, ⟨97, _⟩ => ⟨S128x128, .f32⟩
  | .hbm, ⟨98, _⟩ => ⟨S50000x128, .f32⟩
  | .hbm, ⟨99, _⟩ => ⟨S1x128, .f32⟩
  | .hbm, ⟨100, _⟩ => ⟨S128, .f32⟩
  | .hbm, ⟨101, _⟩ => ⟨S1x128, .f32⟩
  | .hbm, ⟨102, _⟩ => ⟨S50000x128, .f32⟩
  | .hbm, ⟨103, _⟩ => ⟨S50000x128, .f32⟩
  | .hbm, ⟨104, _⟩ => ⟨S_, .f32⟩
  | .hbm, ⟨105, _⟩ => ⟨S50000x128, .f32⟩
  | .hbm, ⟨106, _⟩ => ⟨S50000x128, .f32⟩
  | .hbm, ⟨107, _⟩ => ⟨S1x128x128, .f32⟩
  | .hbm, ⟨108, _⟩ => ⟨S128x128, .f32⟩
  | .hbm, ⟨109, _⟩ => ⟨S50000x128, .f32⟩
  | .hbm, ⟨110, _⟩ => ⟨S1x128, .f32⟩
  | .hbm, ⟨111, _⟩ => ⟨S128, .f32⟩
  | .hbm, ⟨112, _⟩ => ⟨S1x128, .f32⟩
  | .hbm, ⟨113, _⟩ => ⟨S50000x128, .f32⟩
  | .hbm, ⟨114, _⟩ => ⟨S50000x128, .f32⟩
  | .hbm, ⟨115, _⟩ => ⟨S_, .f32⟩
  | .hbm, ⟨116, _⟩ => ⟨S50000x128, .f32⟩
  | .hbm, ⟨117, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_c_3 : Ref sig .tc := ⟨.hbm, 46, rfl⟩
abbrev main_v35 : Ref sig .tc := ⟨.hbm, 47, rfl⟩
abbrev main_v36 : Ref sig .tc := ⟨.hbm, 48, rfl⟩
abbrev main_c_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_7 : Ref sig .tc := ⟨.hbm, 79, rfl⟩
abbrev main_v64 : Ref sig .tc := ⟨.hbm, 80, rfl⟩
abbrev main_v65 : Ref sig .tc := ⟨.hbm, 81, rfl⟩
abbrev main_c_8 : Ref sig .tc := ⟨.hbm, 82, rfl⟩
abbrev main_v66 : Ref sig .tc := ⟨.hbm, 83, rfl⟩
abbrev main_v67 : Ref sig .tc := ⟨.hbm, 84, rfl⟩
abbrev main_c_9 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_10 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_11 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_12 : Ref sig .tc := ⟨.hbm, 115, rfl⟩
abbrev main_v95 : Ref sig .tc := ⟨.hbm, 116, rfl⟩
abbrev main_v96 : Ref sig .tc := ⟨.hbm, 117, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result named.

  The program is six segments: a stretch of host operations, a launch of the perceptron kernel over ten blocks of
  rows, and the same twice more.  At each boundary between segments the buffers hold a fold of what came before:
  `W1` after the first stretch, `W2` after the first launch (its output array at what the ten write-backs leave,
  everything else untouched), … , `W6` after the last launch.  Every weakly fair execution terminates without a
  fault, and at the end each buffer holds the last boundary's contents: the arguments read back to what was
  launched, and the result array `W6` at the third launch's output.  The value of that array is computed
  elsewhere; here it is only named.
-/
import proofs.«118464_j22170621182212_1_alg».proof.Proof.Gen.KernelIdeal.Frame

set_option maxRecDepth 16384

noncomputable section

namespace Cert.KernelIdeal.GinRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting; the
    result array ends at the last boundary's contents and the six argument arrays end as launched. -/
theorem run_out : θ_run defs (onTc (τ := τ) (main (F := F))) ⟨m, fun _ => 0, ρ⟩ (fun r => ∀ c : Dev nD,
      r.2.mem ((c.tc : Thread nD τ).loc main_v69) = W6 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v69 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.GinRun

end
-- ==== Proof.GinSpec.lean ====
/-
  The multilayer perceptron of one graph-isomorphism layer, as a function on extended reals.

  A layer maps a row `a` of 128 features to `relu (relu (a · W₁ + b₁) · W₂ + b₂)`: two affine maps, each followed by the
  rectifier `max · 0`.  `denseRelu` is one affine map with its rectifier on one row, `mlpRow` the two in sequence,
  and `mlp n` applies `mlpRow` to every row of an `n × 128` array.  The row count is a parameter because the same
  function is met twice: on a block of rows, and on the whole array; a row of the result depends only on the
  same row of the input.

  The zero of the rectifier is kept as the word it is written with: both programs write the same word, so it is never
  evaluated.
-/
import Idealize.ShloMosaic.PureOps.Ideal
import Idealize.ShloMosaic.Lib.ValueIdx

noncomputable section

namespace Cert.Gin

open Idealize.ShloMosaic Idealize.ShloMosaic.ValueIdx

/-- One affine map with bias followed by the rectifier, on one row: entry `k` is `max (∑ j, a j · w j k + b k) 0`. -/
def denseRelu (a : Fin 128 → EReal) (w : Fin 128 → Fin 128 → EReal) (b : Fin 128 → EReal) (k : Fin 128) : EReal :=
  max ((∑ j : Fin 128, a j * w j k) + b k) (Ideal.ofBits .f32 0x00000000#32)

/-- The two-layer perceptron on one row. -/
def mlpRow (a : Fin 128 → EReal) (w1 : Fin 128 → Fin 128 → EReal) (b1 : Fin 128 → EReal)
    (w2 : Fin 128 → Fin 128 → EReal) (b2 : Fin 128 → EReal) : Fin 128 → EReal :=
  denseRelu (denseRelu a w1 b1) w2 b2

/-- The perceptron applied to every row of an `n × 128` array; the weights are `128 × 128` arrays, the biases rows. -/
def mlp (n : ℕ) (a : (⟨2, ![n, 128]⟩ : Shape).Idx → EReal) (w1 : (⟨2, ![128, 128]⟩ : Shape).Idx → EReal) (b1 : Fin 128 → EReal)
    (w2 : (⟨2, ![128, 128]⟩ : Shape).Idx → EReal) (b2 : Fin 128 → EReal) : (⟨2, ![n, 128]⟩ : Shape).Idx → EReal :=
  fun i => mlpRow (fun j => a (ix2 (n0 := n) (n1 := 128) ⟨(i 0).val, (i 0).isLt⟩ j)) (fun j k => w1 (ix2 j k)) b1
    (fun j k => w2 (ix2 j k)) b2 ⟨(i 1).val, (i 1).isLt⟩

/-- At explicit coordinates. -/
theorem mlp_ix2 (n : ℕ) (a : (⟨2, ![n, 128]⟩ : Shape).Idx → EReal) (w1 : (⟨2, ![128, 128]⟩ : Shape).Idx → EReal) (b1 : Fin 128 → EReal)
    (w2 : (⟨2, ![128, 128]⟩ : Shape).Idx → EReal) (b2 : Fin 128 → EReal) (r : Fin n) (l : Fin 128) :
    mlp n a w1 b1 w2 b2 (ix2 r l)
      = mlpRow (fun j => a (ix2 r j)) (fun j k => w1 (ix2 j k)) b1 (fun j k => w2 (ix2 j k)) b2 l := rfl

end Cert.Gin

end
-- ==== Proof.RegionPayload.lean ====
/-
  The arithmetic of one kernel body, read at an index: on a block of 5000 rows the body computes the two-layer
  perceptron of `Cert.Gin.mlp`, row by row.

  The body narrows its operands to bf16 before each product and widens nothing back; on extended reals a format
  change is the identity, a product into a zero accumulator is the plain sum of products over the contracted axis,
  a `[1,128]` bias broadcast over the rows reads its one row, and the rectifier is `max · 0` with the zero kept as
  the word it is written with.  `dense_block` is one such layer at the entry `(r, l)`; the payload is two of them.
-/
import proofs.«118464_j22170621182212_1_alg».proof.Proof.Gen.KernelIdeal.Frame
import proofs.«118464_j22170621182212_1_alg».proof.Proof.GinSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GinRegion

open Cert.KernelIdeal Idealize.ShloMosaic Idealize.ShloMosaic.ValueIdx

/-- The offsets of a whole-block access, as the constant zero function. -/
theorem zero_offsets : (![0, 0] : Fin 2 → Nat) = fun _ => 0 := funext fun a => by fin_cases a <;> rfl

/-- The left operand's row coordinate at output entry `i` is `i`'s row. -/
theorem dot_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand's column coordinate at output entry `i` is `i`'s column. -/
theorem dot_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The left operand of the block's product at output entry `(r, l)` and contraction index `k` is its entry `(r, k)`. -/
theorem dot_lhs (r : Fin 5000) (l : Fin 128) (k : Fin 128) :
    dot_S5000x128_S128x128_S5000x128_1_0_0_1_n_n.lhsIdx (ix2 r l)
        ((contrEquiv1 dot_S5000x128_S128x128_S5000x128_1_0_0_1_n_n 128 rfl rfl).symm k) = ix2 r k := by
  have hk := contrEquiv1_symm_val dot_S5000x128_S128x128_S5000x128_1_0_0_1_n_n 128 rfl rfl k
  refine funext fun a => Fin.ext ?_
  match a with
  | ⟨0, _⟩ => exact dot_lhs_row _ _
  | ⟨1, _⟩ => exact (dot_S5000x128_S128x128_S5000x128_1_0_0_1_n_n.lhsIdx_val_of_single rfl _ _).trans hk

/-- The right operand there is its entry `(k, l)`. -/
theorem dot_rhs (r : Fin 5000) (l : Fin 128) (k : Fin 128) :
    dot_S5000x128_S128x128_S5000x128_1_0_0_1_n_n.rhsIdx (ix2 r l)
        ((contrEquiv1 dot_S5000x128_S128x128_S5000x128_1_0_0_1_n_n 128 rfl rfl).symm k) = ix2 k l := by
  have hk := contrEquiv1_symm_val dot_S5000x128_S128x128_S5000x128_1_0_0_1_n_n 128 rfl rfl k
  refine funext fun a => Fin.ext ?_
  match a with
  | ⟨0, _⟩ => exact (dot_S5000x128_S128x128_S5000x128_1_0_0_1_n_n.rhsIdx_val_of_single rfl _ _).trans hk
  | ⟨1, _⟩ => exact dot_rhs_col _ _

/-- A block's product into the zero accumulator, at entry `(r, l)`: the sum over the contracted axis. -/
theorem matmul_block {φ₁ φ₂ : FTy} (x : FVec Ideal S5000x128 φ₁) (w : FVec Ideal S128x128 φ₂) (r : Fin 5000) (l : Fin 128) :
    matmul (F := Ideal) dot_S5000x128_S128x128_S5000x128_1_0_0_1_n_n none x w (constant (F := Ideal) S5000x128 .f32 0x00000000#32) (ix2 r l)
      = ∑ j : Fin 128, x (ix2 r j) * w (ix2 j l) := by
  refine (Ideal.matmul_constant_zero_apply dot_S5000x128_S128x128_S5000x128_1_0_0_1_n_n none x w (ix2 r l)).trans ?_
  rw [← Equiv.sum_comp (contrEquiv1 dot_S5000x128_S128x128_S5000x128_1_0_0_1_n_n 128 rfl rfl).symm]
  refine Finset.sum_congr rfl fun k _ => ?_
  rw [dot_lhs, dot_rhs]

/-- One layer of the body at entry `(r, l)`: product, bias row, rectifier. -/
theorem dense_block {φ₁ φ₂ : FTy} (x : FVec Ideal S5000x128 φ₁) (w : FVec Ideal S128x128 φ₂) (b : FVec Ideal S1x128 .f32)
    (hb : S1x128.Broadcasts S5000x128) (r : Fin 5000) (l : Fin 128) :
    maximumf (F := Ideal)
        (addf (F := Ideal) (matmul (F := Ideal) dot_S5000x128_S128x128_S5000x128_1_0_0_1_n_n none x w (constant (F := Ideal) S5000x128 .f32 0x00000000#32))
          (broadcastTo S5000x128 b hb))
        (broadcast S5000x128 (Scalar.ofBits (F := Ideal) .f32 0x00000000#32)) (ix2 r l)
      = Cert.Gin.denseRelu (fun j => x (ix2 r j)) (fun j k => w (ix2 j k)) (fun k => b (ix2 0 k)) l := by
  rw [maximumf_apply, addf_apply, matmul_block, broadcast_apply]
  rw [show broadcastTo S5000x128 b hb (ix2 r l) = b (ix2 (0 : Fin 1) l) from broadcastTo_1b_ab_apply b hb r l]
  rfl

/-- The perceptron at an entry depends on the row array only through that entry's row: two row arrays, of any heights,
    that agree on a row give the same perceptron on it, at the same column. -/
theorem mlp_congr {n n' : ℕ} (a : (⟨2, ![n, 128]⟩ : Shape).Idx → EReal) (a' : (⟨2, ![n', 128]⟩ : Shape).Idx → EReal)
    (w1 : (⟨2, ![128, 128]⟩ : Shape).Idx → EReal) (b1 : Fin 128 → EReal) (w2 : (⟨2, ![128, 128]⟩ : Shape).Idx → EReal)
    (b2 : Fin 128 → EReal) (i : (⟨2, ![n, 128]⟩ : Shape).Idx) (i' : (⟨2, ![n', 128]⟩ : Shape).Idx)
    (hrow : ∀ l : Fin 128, a (ix2 (n0 := n) (n1 := 128) ⟨(i 0).val, (i 0).isLt⟩ l)
      = a' (ix2 (n0 := n') (n1 := 128) ⟨(i' 0).val, (i' 0).isLt⟩ l))
    (hcol : (i 1).val = (i' 1).val) :
    Cert.Gin.mlp n a w1 b1 w2 b2 i = Cert.Gin.mlp n' a' w1 b1 w2 b2 i' := by
  unfold Cert.Gin.mlp
  rw [show (fun l => a (ix2 (n0 := n) (n1 := 128) ⟨(i 0).val, (i 0).isLt⟩ l))
      = (fun l => a' (ix2 (n0 := n') (n1 := 128) ⟨(i' 0).val, (i' 0).isLt⟩ l)) from funext hrow]
  exact congrArg _ (Fin.ext hcol)

/-- The body's arithmetic on a block is the perceptron of the block's rows. -/
theorem pay0_eq (x0 : Vec Ideal S5000x128 .f32) (x1 : Vec Ideal S128x128 .f32) (x2 : Vec Ideal S1x128 .f32)
    (x3 : Vec Ideal S128x128 .f32) (x4 : Vec Ideal S1x128 .f32) :
    Gen.k0_pay1 (F := Ideal) x0 x1 x2 x3 x4
      = Cert.Gin.mlp 5000 x0 x1 (fun k => x2 (ix2 0 k)) x3 (fun k => x4 (ix2 0 k)) := by
  funext j
  obtain ⟨r, l, rfl⟩ : ∃ (r : Fin 5000) (l : Fin 128), j = ix2 r l := ⟨j 0, j 1, eq_ix2 j⟩
  rw [Cert.Gin.mlp_ix2]
  unfold Gen.k0_pay1 Cert.Gin.mlpRow
  simp only [shapeCast_self]
  refine (dense_block _ _ _ _ r l).trans ?_
  refine congrArg (fun a => Cert.Gin.denseRelu a _ _ l) (funext fun j => ?_)
  rw [truncf_apply]
  refine (dense_block _ _ _ _ r j).trans ?_
  rfl

/-- The same for the second layer's body. -/
theorem pay1_eq (x0 : Vec Ideal S5000x128 .f32) (x1 : Vec Ideal S128x128 .f32) (x2 : Vec Ideal S1x128 .f32)
    (x3 : Vec Ideal S128x128 .f32) (x4 : Vec Ideal S1x128 .f32) :
    Gen.k1_pay1 (F := Ideal) x0 x1 x2 x3 x4
      = Cert.Gin.mlp 5000 x0 x1 (fun k => x2 (ix2 0 k)) x3 (fun k => x4 (ix2 0 k)) := by
  funext j
  obtain ⟨r, l, rfl⟩ : ∃ (r : Fin 5000) (l : Fin 128), j = ix2 r l := ⟨j 0, j 1, eq_ix2 j⟩
  rw [Cert.Gin.mlp_ix2]
  unfold Gen.k1_pay1 Cert.Gin.mlpRow
  simp only [shapeCast_self]
  refine (dense_block _ _ _ _ r l).trans ?_
  refine congrArg (fun a => Cert.Gin.denseRelu a _ _ l) (funext fun j => ?_)
  rw [truncf_apply]
  refine (dense_block _ _ _ _ r j).trans ?_
  rfl

/-- The same for the third layer's body. -/
theorem pay2_eq (x0 : Vec Ideal S5000x128 .f32) (x1 : Vec Ideal S128x128 .f32) (x2 : Vec Ideal S1x128 .f32)
    (x3 : Vec Ideal S128x128 .f32) (x4 : Vec Ideal S1x128 .f32) :
    Gen.k2_pay1 (F := Ideal) x0 x1 x2 x3 x4
      = Cert.Gin.mlp 5000 x0 x1 (fun k => x2 (ix2 0 k)) x3 (fun k => x4 (ix2 0 k)) := by
  funext j
  obtain ⟨r, l, rfl⟩ : ∃ (r : Fin 5000) (l : Fin 128), j = ix2 r l := ⟨j 0, j 1, eq_ix2 j⟩
  rw [Cert.Gin.mlp_ix2]
  unfold Gen.k2_pay1 Cert.Gin.mlpRow
  simp only [shapeCast_self]
  refine (dense_block _ _ _ _ r l).trans ?_
  refine congrArg (fun a => Cert.Gin.denseRelu a _ _ l) (funext fun j => ?_)
  rw [truncf_apply]
  refine (dense_block _ _ _ _ r j).trans ?_
  rfl

end Cert.KernelIdeal.GinRegion

end
-- ==== Proof.Region0.lean ====
/-
  Region 0, from blocks to the array: after the ten grid points have run, the region's output array is the perceptron
  `Cert.Gin.mlp 50000` of the arrays the region found on entry.

  Point `t` stages rows `5000 t … 5000 t + 4999` of the row array and the four weight and bias arrays whole, and writes
  back the body's result for those rows.  The body's result on a block is the perceptron of the block's rows
  (`pay0_eq`), a row of the block is a row of the array, so what point `t` writes back is block `t` of the perceptron
  of the whole array; row `r` lies in the block of point `r / 5000`, so the blocks cover the array.
-/
import proofs.«118464_j22170621182212_1_alg».proof.Proof.RegionPayload

noncomputable section

namespace Cert.KernelIdeal.GinRegion

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The perceptron of the arrays region 0 finds on entry. -/
abbrev result0 (c : Dev nD) : S50000x128.Idx → EReal :=
  Cert.Gin.mlp 50000 (V c main_v14 : S50000x128.Idx → EReal) (V c main_v16 : S128x128.Idx → EReal)
    (fun k => (V c main_v23 : S1x128.Idx → EReal) (ix2 0 k)) (V c main_v20 : S128x128.Idx → EReal)
    (fun k => (V c main_v24 : S1x128.Idx → EReal) (ix2 0 k))

/-- The block index maps over the grid: the row windows are at block `t` of the rows, every other index is zero. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first weight window's block is its whole array, at every point. -/
theorem weights1_block0 (c : Dev nD) (t : Fin cfg0.N) :
    (Gen.iblk0 V c 1 t : S128x128.Idx → EReal) = (V c main_v16 : S128x128.Idx → EReal) := by
  obtain ⟨-, -, e0, e1, -⟩ := index_facts0 t
  funext y
  show (V c main_v16 : S128x128.Idx → EReal) (((cfg0.win 1).blk t).view.emb y) = _
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The first bias window's block is its whole array. -/
theorem bias1_block0 (c : Dev nD) (t : Fin cfg0.N) :
    (Gen.iblk0 V c 2 t : S1x128.Idx → EReal) = (V c main_v23 : S1x128.Idx → EReal) := by
  obtain ⟨-, -, -, -, e0, e1, -⟩ := index_facts0 t
  funext y
  show (V c main_v23 : S1x128.Idx → EReal) (((cfg0.win 2).blk t).view.emb y) = _
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The second weight window's block is its whole array. -/
theorem weights2_block0 (c : Dev nD) (t : Fin cfg0.N) :
    (Gen.iblk0 V c 3 t : S128x128.Idx → EReal) = (V c main_v20 : S128x128.Idx → EReal) := by
  obtain ⟨-, -, -, -, -, -, e0, e1, -⟩ := index_facts0 t
  funext y
  show (V c main_v20 : S128x128.Idx → EReal) (((cfg0.win 3).blk t).view.emb y) = _
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The second bias window's block is its whole array. -/
theorem bias2_block0 (c : Dev nD) (t : Fin cfg0.N) :
    (Gen.iblk0 V c 4 t : S1x128.Idx → EReal) = (V c main_v24 : S1x128.Idx → EReal) := by
  obtain ⟨-, -, -, -, -, -, -, -, e0, e1, -⟩ := index_facts0 t
  funext y
  show (V c main_v24 : S1x128.Idx → EReal) (((cfg0.win 4).blk t).view.emb y) = _
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- What point `t` writes back is block `t` of the perceptron of the whole arrays. -/
theorem flushed0_eq (c : Dev nD) (t : Fin cfg0.N) :
    (Gen.dat0 (F := Ideal) V c).flushed 5 t = ((cfg0.win 5).blk t).view.read (Elt Ideal) (result0 V c) := by
  show (cfg0.win 5).cut (grid0.coords t) ((Gen.dat0 (F := Ideal) V c).after 5 t) = _
  rw [Gen.after0_5]
  unfold Gen.out0_5
  rw [View.canon_unit_zero zero_offsets]
  simp only [View.ld_unit_zero (S := S5000x128) zero_offsets, View.ld_unit_zero (S := S128x128) zero_offsets,
    View.ld_unit_zero (S := S1x128) zero_offsets]
  rw [pay0_eq, weights1_block0, bias1_block0, weights2_block0, bias2_block0]
  obtain ⟨a0, a1, -, -, -, -, -, -, -, -, o0, o1⟩ := index_facts0 t
  funext j
  show Cert.Gin.mlp 5000 (Gen.iblk0 V c 0 t : S5000x128.Idx → EReal) (V c main_v16 : S128x128.Idx → EReal)
      (fun k => (V c main_v23 : S1x128.Idx → EReal) (ix2 0 k)) (V c main_v20 : S128x128.Idx → EReal)
      (fun k => (V c main_v24 : S1x128.Idx → EReal) (ix2 0 k)) j
    = result0 V c (((cfg0.win 5).blk t).view.emb j)
  refine mlp_congr _ _ _ _ _ _ _ _ (fun l => ?_) ?_
  · show (V c main_v14 : S50000x128.Idx → EReal) (((cfg0.win 0).blk t).view.emb (ix2 ⟨(j 0).val, (j 0).isLt⟩ l)) = _
    refine congrArg _ (funext fun a => Fin.ext ?_)
    match a with
    | ⟨0, _⟩ =>
      show win0_0.index t (0 : Fin 2) * 5000 + 1 * (j 0).val = win0_5.index t (0 : Fin 2) * 5000 + 1 * (j 0).val
      rw [a0, o0]
    | ⟨1, _⟩ => show win0_0.index t (1 : Fin 2) * 128 + 1 * l.val = l.val; rw [a1]; omega
  · show (j 1).val = win0_5.index t (1 : Fin 2) * 128 + 1 * (j 1).val
    rw [o1]; omega

/-- An index of the array is in point `t`'s block iff each coordinate is in the block's range on its axis. -/
theorem mem_block0 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v25).slice (win0_5.rect t)).set ↔ _
  rw [View.set_slice_whole, Rect.mem_set_unit]
  exact Iff.rfl

/-- Row `r` of the array is in the block of point `r / 5000`. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := Gen.N_0
  refine ⟨⟨(i 0).val / 5000, by rw [hN]; omega⟩, Gen.flush0_5 _, ?_⟩
  obtain ⟨-, -, -, -, -, -, -, -, -, -, o0, o1⟩ := index_facts0 ⟨(i 0).val / 5000, by rw [hN]; omega⟩
  rw [mem_block0]
  intro a
  match a with
  | ⟨0, _⟩ =>
    show win0_5.index _ (0 : Fin 2) * 5000 ≤ (i 0).val ∧ (i 0).val < win0_5.index _ (0 : Fin 2) * 5000 + 5000
    rw [o0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [o1]; omega

/-- THE ARRAY after region 0: the perceptron of the arrays the region found. -/
theorem final0 (c : Dev nD) :
    ((Gen.dat0 (F := Ideal) V c).arrAt 5 cfg0.N : S50000x128.Idx → EReal)
      = Cert.Gin.mlp 50000 (V c main_v14 : S50000x128.Idx → EReal) (V c main_v16 : S128x128.Idx → EReal)
          (fun k => (V c main_v23 : S1x128.Idx → EReal) (ix2 0 k)) (V c main_v20 : S128x128.Idx → EReal)
          (fun k => (V c main_v24 : S1x128.Idx → EReal) (ix2 0 k)) :=
  (Gen.dat0 (F := Ideal) V c).arrAt_eq_of_cover 5 (result0 V c) (fun t _ => flushed0_eq V c t) cover0

end Cert.KernelIdeal.GinRegion

end
-- ==== Proof.Region1.lean ====
/-
  Region 1, from blocks to the array: after the ten grid points have run, the region's output array is the perceptron
  `Cert.Gin.mlp 50000` of the arrays the region found on entry.

  Point `t` stages rows `5000 t … 5000 t + 4999` of the row array and the four weight and bias arrays whole, and writes
  back the body's result for those rows.  The body's result on a block is the perceptron of the block's rows
  (`pay1_eq`), a row of the block is a row of the array, so what point `t` writes back is block `t` of the perceptron
  of the whole array; row `r` lies in the block of point `r / 5000`, so the blocks cover the array.
-/
import proofs.«118464_j22170621182212_1_alg».proof.Proof.RegionPayload

noncomputable section

namespace Cert.KernelIdeal.GinRegion

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The perceptron of the arrays region 1 finds on entry. -/
abbrev result1 (c : Dev nD) : S50000x128.Idx → EReal :=
  Cert.Gin.mlp 50000 (V c main_v36 : S50000x128.Idx → EReal) (V c main_v38 : S128x128.Idx → EReal)
    (fun k => (V c main_v45 : S1x128.Idx → EReal) (ix2 0 k)) (V c main_v42 : S128x128.Idx → EReal)
    (fun k => (V c main_v46 : S1x128.Idx → EReal) (ix2 0 k))

/-- The block index maps over the grid: the row windows are at block `t` of the rows, every other index is zero. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The first weight window's block is its whole array, at every point. -/
theorem weights1_block1 (c : Dev nD) (t : Fin cfg1.N) :
    (Gen.iblk1 V c 1 t : S128x128.Idx → EReal) = (V c main_v38 : S128x128.Idx → EReal) := by
  obtain ⟨-, -, e0, e1, -⟩ := index_facts1 t
  funext y
  show (V c main_v38 : S128x128.Idx → EReal) (((cfg1.win 1).blk t).view.emb y) = _
  refine congrArg _ (funext fun a => Fin.ext ?_)
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- The first bias window's block is its whole array. -/
theorem bias1_block1 (c : Dev nD) (t : Fin cfg1.N) :
    (Gen.iblk1 V c 2 t : S1x128.Idx → EReal) = (V c main_v45 : S1x128.Idx → EReal) := by
  obtain ⟨-, -, -, -, e0, e1, -⟩ := index_facts1 t
  funext y
  show (V c main_v45 : S1x128.Idx → EReal) (((cfg1.win 2).blk t).view.emb y) = _
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The second weight window's block is its whole array. -/
theorem weights2_block1 (c : Dev nD) (t : Fin cfg1.N) :
    (Gen.iblk1 V c 3 t : S128x128.Idx → EReal) = (V c main_v42 : S128x128.Idx → EReal) := by
  obtain ⟨-, -, -, -, -, -, e0, e1, -⟩ := index_facts1 t
  funext y
  show (V c main_v42 : S128x128.Idx → EReal) (((cfg1.win 3).blk t).view.emb y) = _
  refine congrArg _ (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The second bias window's block is its whole array. -/
theorem bias2_block1 (c : Dev nD) (t : Fin cfg1.N) :
    (Gen.iblk1 V c 4 t : S1x128.Idx → EReal) = (V c main_v46 : S1x128.Idx → EReal) := by
  obtain ⟨-, -, -, -, -, -, -, -, e0, e1, -⟩ := index_facts1 t
  funext y
  show (V c main_v46 : S1x128.Idx → EReal) (((cfg1.win 4).blk t).view.emb y) = _
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- What point `t` writes back is block `t` of the perceptron of the whole arrays. -/
theorem flushed1_eq (c : Dev nD) (t : Fin cfg1.N) :
    (Gen.dat1 (F := Ideal) V c).flushed 5 t = ((cfg1.win 5).blk t).view.read (Elt Ideal) (result1 V c) := by
  show (cfg1.win 5).cut (grid1.coords t) ((Gen.dat1 (F := Ideal) V c).after 5 t) = _
  rw [Gen.after1_5]
  unfold Gen.out1_5
  rw [View.canon_unit_zero zero_offsets]
  simp only [View.ld_unit_zero (S := S5000x128) zero_offsets, View.ld_unit_zero (S := S128x128) zero_offsets,
    View.ld_unit_zero (S := S1x128) zero_offsets]
  rw [pay1_eq, weights1_block1, bias1_block1, weights2_block1, bias2_block1]
  obtain ⟨a0, a1, -, -, -, -, -, -, -, -, o0, o1⟩ := index_facts1 t
  funext j
  show Cert.Gin.mlp 5000 (Gen.iblk1 V c 0 t : S5000x128.Idx → EReal) (V c main_v38 : S128x128.Idx → EReal)
      (fun k => (V c main_v45 : S1x128.Idx → EReal) (ix2 0 k)) (V c main_v42 : S128x128.Idx → EReal)
      (fun k => (V c main_v46 : S1x128.Idx → EReal) (ix2 0 k)) j
    = result1 V c (((cfg1.win 5).blk t).view.emb j)
  refine mlp_congr _ _ _ _ _ _ _ _ (fun l => ?_) ?_
  · show (V c main_v36 : S50000x128.Idx → EReal) (((cfg1.win 0).blk t).view.emb (ix2 ⟨(j 0).val, (j 0).isLt⟩ l)) = _
    refine congrArg _ (funext fun a => Fin.ext ?_)
    match a with
    | ⟨0, _⟩ =>
      show win1_0.index t (0 : Fin 2) * 5000 + 1 * (j 0).val = win1_5.index t (0 : Fin 2) * 5000 + 1 * (j 0).val
      rw [a0, o0]
    | ⟨1, _⟩ => show win1_0.index t (1 : Fin 2) * 128 + 1 * l.val = l.val; rw [a1]; omega
  · show (j 1).val = win1_5.index t (1 : Fin 2) * 128 + 1 * (j 1).val
    rw [o1]; omega

/-- An index of the array is in point `t`'s block iff each coordinate is in the block's range on its axis. -/
theorem mem_block1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v47).slice (win1_5.rect t)).set ↔ _
  rw [View.set_slice_whole, Rect.mem_set_unit]
  exact Iff.rfl

/-- Row `r` of the array is in the block of point `r / 5000`. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := Gen.N_1
  refine ⟨⟨(i 0).val / 5000, by rw [hN]; omega⟩, Gen.flush1_5 _, ?_⟩
  obtain ⟨-, -, -, -, -, -, -, -, -, -, o0, o1⟩ := index_facts1 ⟨(i 0).val / 5000, by rw [hN]; omega⟩
  rw [mem_block1]
  intro a
  match a with
  | ⟨0, _⟩ =>
    show win1_5.index _ (0 : Fin 2) * 5000 ≤ (i 0).val ∧ (i 0).val < win1_5.index _ (0 : Fin 2) * 5000 + 5000
    rw [o0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [o1]; omega

/-- THE ARRAY after region 1: the perceptron of the arrays the region found. -/
theorem final1 (c : Dev nD) :
    ((Gen.dat1 (F := Ideal) V c).arrAt 5 cfg1.N : S50000x128.Idx → EReal)
      = Cert.Gin.mlp 50000 (V c main_v36 : S50000x128.Idx → EReal) (V c main_v38 : S128x128.Idx → EReal)
          (fun k => (V c main_v45 : S1x128.Idx → EReal) (ix2 0 k)) (V c main_v42 : S128x128.Idx → EReal)
          (fun k => (V c main_v46 : S1x128.Idx → EReal) (ix2 0 k)) :=
  (Gen.dat1 (F := Ideal) V c).arrAt_eq_of_cover 5 (result1 V c) (fun t _ => flushed1_eq V c t) cover1

end Cert.KernelIdeal.GinRegion

end
-- ==== Proof.Region2.lean ====
/-
  Region 2, from blocks to the array: after the ten grid points have run, the region's output array is the perceptron
  `Cert.Gin.mlp 50000` of the arrays the region found on entry.

  Point `t` stages rows `5000 t … 5000 t + 4999` of the row array and the four weight and bias arrays whole, and writes
  back the body's result for those rows.  The body's result on a block is the perceptron of the block's rows
  (`pay2_eq`), a row of the block is a row of the array, so what point `t` writes back is block `t` of the perceptron
  of the whole array; row `r` lies in the block of point `r / 5000`, so the blocks cover the array.
-/
import proofs.«118464_j22170621182212_1_alg».proof.Proof.RegionPayload

noncomputable section

namespace Cert.KernelIdeal.GinRegion

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The perceptron of the arrays region 2 finds on entry. -/
abbrev result2 (c : Dev nD) : S50000x128.Idx → EReal :=
  Cert.Gin.mlp 50000 (V c main_v58 : S50000x128.Idx → EReal) (V c main_v60 : S128x128.Idx → EReal)
    (fun k => (V c main_v67 : S1x128.Idx → EReal) (ix2 0 k)) (V c main_v64 : S128x128.Idx → EReal)
    (fun k => (V c main_v68 : S1x128.Idx → EReal) (ix2 0 k))

/-- The block index maps over the grid: the row windows are at block `t` of the rows, every other index is zero. -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The first weight window's block is its whole array, at every point. -/
theorem weights1_block2 (c : Dev nD) (t : Fin cfg2.N) :
    (Gen.iblk2 V c 1 t : S128x128.Idx → EReal) = (V c main_v60 : S128x128.Idx → EReal) := by
  obtain ⟨-, -, e0, e1, -⟩ := index_facts2 t
  funext y
  show (V c main_v60 : S128x128.Idx → EReal) (((cfg2.win 1).blk t).view.emb y) = _
  refine congrArg _ (funext fun a => Fin.ext ?_)
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega

/-- The first bias window's block is its whole array. -/
theorem bias1_block2 (c : Dev nD) (t : Fin cfg2.N) :
    (Gen.iblk2 V c 2 t : S1x128.Idx → EReal) = (V c main_v67 : S1x128.Idx → EReal) := by
  obtain ⟨-, -, -, -, e0, e1, -⟩ := index_facts2 t
  funext y
  show (V c main_v67 : S1x128.Idx → EReal) (((cfg2.win 2).blk t).view.emb y) = _
  refine congrArg _ (funext fun a => Fin.ext ?_)
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- The second weight window's block is its whole array. -/
theorem weights2_block2 (c : Dev nD) (t : Fin cfg2.N) :
    (Gen.iblk2 V c 3 t : S128x128.Idx → EReal) = (V c main_v64 : S128x128.Idx → EReal) := by
  obtain ⟨-, -, -, -, -, -, e0, e1, -⟩ := index_facts2 t
  funext y
  show (V c main_v64 : S128x128.Idx → EReal) (((cfg2.win 3).blk t).view.emb y) = _
  refine congrArg _ (funext fun a => Fin.ext ?_)
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- The second bias window's block is its whole array. -/
theorem bias2_block2 (c : Dev nD) (t : Fin cfg2.N) :
    (Gen.iblk2 V c 4 t : S1x128.Idx → EReal) = (V c main_v68 : S1x128.Idx → EReal) := by
  obtain ⟨-, -, -, -, -, -, -, -, e0, e1, -⟩ := index_facts2 t
  funext y
  show (V c main_v68 : S1x128.Idx → EReal) (((cfg2.win 4).blk t).view.emb y) = _
  refine congrArg _ (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- What point `t` writes back is block `t` of the perceptron of the whole arrays. -/
theorem flushed2_eq (c : Dev nD) (t : Fin cfg2.N) :
    (Gen.dat2 (F := Ideal) V c).flushed 5 t = ((cfg2.win 5).blk t).view.read (Elt Ideal) (result2 V c) := by
  show (cfg2.win 5).cut (grid2.coords t) ((Gen.dat2 (F := Ideal) V c).after 5 t) = _
  rw [Gen.after2_5]
  unfold Gen.out2_5
  rw [View.canon_unit_zero zero_offsets]
  simp only [View.ld_unit_zero (S := S5000x128) zero_offsets, View.ld_unit_zero (S := S128x128) zero_offsets,
    View.ld_unit_zero (S := S1x128) zero_offsets]
  rw [pay2_eq, weights1_block2, bias1_block2, weights2_block2, bias2_block2]
  obtain ⟨a0, a1, -, -, -, -, -, -, -, -, o0, o1⟩ := index_facts2 t
  funext j
  show Cert.Gin.mlp 5000 (Gen.iblk2 V c 0 t : S5000x128.Idx → EReal) (V c main_v60 : S128x128.Idx → EReal)
      (fun k => (V c main_v67 : S1x128.Idx → EReal) (ix2 0 k)) (V c main_v64 : S128x128.Idx → EReal)
      (fun k => (V c main_v68 : S1x128.Idx → EReal) (ix2 0 k)) j
    = result2 V c (((cfg2.win 5).blk t).view.emb j)
  refine mlp_congr _ _ _ _ _ _ _ _ (fun l => ?_) ?_
  · show (V c main_v58 : S50000x128.Idx → EReal) (((cfg2.win 0).blk t).view.emb (ix2 ⟨(j 0).val, (j 0).isLt⟩ l)) = _
    refine congrArg _ (funext fun a => Fin.ext ?_)
    match a with
    | ⟨0, _⟩ =>
      show win2_0.index t (0 : Fin 2) * 5000 + 1 * (j 0).val = win2_5.index t (0 : Fin 2) * 5000 + 1 * (j 0).val
      rw [a0, o0]
    | ⟨1, _⟩ => show win2_0.index t (1 : Fin 2) * 128 + 1 * l.val = l.val; rw [a1]; omega
  · show (j 1).val = win2_5.index t (1 : Fin 2) * 128 + 1 * (j 1).val
    rw [o1]; omega

/-- An index of the array is in point `t`'s block iff each coordinate is in the block's range on its axis. -/
theorem mem_block2 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v69).slice (win2_5.rect t)).set ↔ _
  rw [View.set_slice_whole, Rect.mem_set_unit]
  exact Iff.rfl

/-- Row `r` of the array is in the block of point `r / 5000`. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := Gen.N_2
  refine ⟨⟨(i 0).val / 5000, by rw [hN]; omega⟩, Gen.flush2_5 _, ?_⟩
  obtain ⟨-, -, -, -, -, -, -, -, -, -, o0, o1⟩ := index_facts2 ⟨(i 0).val / 5000, by rw [hN]; omega⟩
  rw [mem_block2]
  intro a
  match a with
  | ⟨0, _⟩ =>
    show win2_5.index _ (0 : Fin 2) * 5000 ≤ (i 0).val ∧ (i 0).val < win2_5.index _ (0 : Fin 2) * 5000 + 5000
    rw [o0]; show (i 0).val / 5000 * 5000 ≤ (i 0).val ∧ (i 0).val < (i 0).val / 5000 * 5000 + 5000; omega
  | ⟨1, _⟩ =>
    show win2_5.index _ (1 : Fin 2) * 128 ≤ (i 1).val ∧ (i 1).val < win2_5.index _ (1 : Fin 2) * 128 + 128
    rw [o1]; omega

/-- THE ARRAY after region 2: the perceptron of the arrays the region found. -/
theorem final2 (c : Dev nD) :
    ((Gen.dat2 (F := Ideal) V c).arrAt 5 cfg2.N : S50000x128.Idx → EReal)
      = Cert.Gin.mlp 50000 (V c main_v58 : S50000x128.Idx → EReal) (V c main_v60 : S128x128.Idx → EReal)
          (fun k => (V c main_v67 : S1x128.Idx → EReal) (ix2 0 k)) (V c main_v64 : S128x128.Idx → EReal)
          (fun k => (V c main_v68 : S1x128.Idx → EReal) (ix2 0 k)) :=
  (Gen.dat2 (F := Ideal) V c).arrAt_eq_of_cover 5 (result2 V c) (fun t _ => flushed2_eq V c t) cover2

end Cert.KernelIdeal.GinRegion

end
-- ==== Proof.RefLayers.lean ====
/-
  The reference's three layers, each as the two-layer perceptron of its operands.

  Each layer of the reference is the same chain of nine array operations on the aggregated input `a`, the two weight
  matrices `w₁`, `w₂` and the two bias rows `b₁`, `b₂`:
  `max (max (a · w₁ + b₁) 0 · w₂ + b₂) 0`, the biases broadcast along the rows and the zero broadcast everywhere.
  Read at row `r` and column `l`, a matrix product is the sum over the 128 contracted positions, a broadcast bias is
  the bias at `l`, and the broadcast zero is the zero word; so one affine stage with its rectifier is
  `Cert.Gin.denseRelu` of row `r`, and two in sequence are `Cert.Gin.mlp`.  The statement is proved once over
  variable arrays (`layer_eq`) and used for the three layers.
-/
import proofs.«118464_j22170621182212_1_alg».proof.Proof.Gen.ReferenceIdeal.Read
import proofs.«118464_j22170621182212_1_alg».proof.Proof.GinSpec

noncomputable section

namespace Cert.ReferenceIdeal.GinRef

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The matrix product at row `r`, column `l`: the sum over the contracted position `j` of `a r j · w j l`. -/
theorem dot_apply (a : FVec Ideal S50000x128 .f32) (w : FVec Ideal S128x128 .f32) (r : Fin 50000) (l : Fin 128) :
    Host.dotGeneral (F := Ideal) dot_S50000x128_S128x128_S50000x128_1_0_0_1_n_n none a w (ix2 r l)
      = ∑ j : Fin 128, a (ix2 r j) * w (ix2 j l) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r l) ((ValueIdx.contrEquiv1 dot_S50000x128_S128x128_S50000x128_1_0_0_1_n_n 128 rfl rfl).symm k) = ix2 r k := funext fun c => Fin.ext (by
    match c with
    | ⟨0, _⟩ => exact lhs_main_v17_0 _ _
    | ⟨1, _⟩ => exact (lhs_main_v17_1 _ _).trans hk)
  have er : dot_S50000x128_S128x128_S50000x128_1_0_0_1_n_n.rhsIdx (ix2 r l) ((ValueIdx.contrEquiv1 dot_S50000x128_S128x128_S50000x128_1_0_0_1_n_n 128 rfl rfl).symm k) = ix2 k l := funext fun c => Fin.ext (by
    match c with
    | ⟨0, _⟩ => exact (rhs_main_v17_0 _ _).trans hk
    | ⟨1, _⟩ => exact rhs_main_v17_1 _ _)
  rw [el, er]

/-- A bias row broadcast along the rows reads, at row `r` and column `l`, the bias at `l`. -/
theorem bias_apply (b : FVec Ideal S128 .f32) (r : Fin 50000) (l : Fin 128) :
    broadcastInDim S50000x128 ![0, 1] bcast_S1x128_S50000x128_0_1 (broadcastInDim S1x128 ![1] bcast_S128_S1x128_1 b) (ix2 r l)
      = b (ix1 l) :=
  (broadcastInDim_apply _ bcast_S1x128_S50000x128_0_1 (broadcastInDim S1x128 ![1] bcast_S128_S1x128_1 b) (ix2 r l) (ix2 (0 : Fin 1) l) (fun c => match c with
    | ⟨0, _⟩ => by show 0 = if (1 : Nat) = 1 then 0 else r.val; rw [if_pos rfl]
    | ⟨1, _⟩ => by show l.val = if (128 : Nat) = 1 then 0 else l.val; rw [if_neg (by decide)])).trans
  (broadcastInDim_apply _ bcast_S128_S1x128_1 b (ix2 (0 : Fin 1) l) (ix1 l) (fun c => match c with
    | ⟨0, _⟩ => by show l.val = if (128 : Nat) = 1 then 0 else l.val; rw [if_neg (by decide)]))

/-- The zero broadcast to the whole array reads the zero word everywhere. -/
theorem zero_apply (i : S50000x128.Idx) :
    broadcastInDim S50000x128 ![] bcast_S_S50000x128 (constant (F := Ideal) S_ .f32 0x00000000#32) i
      = Ideal.ofBits .f32 0x00000000#32 :=
  broadcastInDim_apply _ bcast_S_S50000x128 (constant (F := Ideal) S_ .f32 0x00000000#32) i (fun c => c.elim0) (fun c => c.elim0)

/-- One affine stage with its rectifier, read at row `r` and column `l`, is `denseRelu` of row `r`. -/
theorem dense_apply (a : FVec Ideal S50000x128 .f32) (w : FVec Ideal S128x128 .f32) (b : FVec Ideal S128 .f32)
    (r : Fin 50000) (l : Fin 128) :
    maximumf (addf (Host.dotGeneral (F := Ideal) dot_S50000x128_S128x128_S50000x128_1_0_0_1_n_n none a w)
        (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32)) (ix2 r l)
      = Cert.Gin.denseRelu (fun j => a (ix2 r j)) (fun j k => w (ix2 j k)) (fun k => b (ix1 k)) l := by
  rw [maximumf_apply, addf_apply, dot_apply, bias_apply, zero_apply]
  rfl

/-- Two stages in sequence are the perceptron of every row. -/
theorem layer_eq (a : FVec Ideal S50000x128 .f32) (w1 w2 : FVec Ideal S128x128 .f32) (b1 b2 : FVec Ideal S128 .f32) :
    maximumf (addf (Host.dotGeneral (F := Ideal) dot_S50000x128_S128x128_S50000x128_1_0_0_1_n_n none
          (maximumf (addf (Host.dotGeneral (F := Ideal) dot_S50000x128_S128x128_S50000x128_1_0_0_1_n_n none a w1)
              (broadcastInDim S50000x128 ![0, 1] bcast_S1x128_S50000x128_0_1 (broadcastInDim S1x128 ![1] bcast_S128_S1x128_1 b1)))
            (broadcastInDim S50000x128 ![] bcast_S_S50000x128 (constant (F := Ideal) S_ .f32 0x00000000#32))) w2)
        (broadcastInDim S50000x128 ![0, 1] bcast_S1x128_S50000x128_0_1 (broadcastInDim S1x128 ![1] bcast_S128_S1x128_1 b2)))
      (broadcastInDim S50000x128 ![] bcast_S_S50000x128 (constant (F := Ideal) S_ .f32 0x00000000#32))
      = Cert.Gin.mlp 50000 a w1 (fun k => b1 (ix1 k)) w2 (fun k => b2 (ix1 k)) := by
  funext i
  obtain ⟨r, l, rfl⟩ : ∃ (r : Fin 50000) (l : Fin 128), i = ix2 r l := ⟨i 0, i 1, eq_ix2 i⟩
  rw [Cert.Gin.mlp_ix2, dense_apply]
  unfold Cert.Gin.mlpRow
  have h : (fun j => maximumf (addf (Host.dotGeneral (F := Ideal) dot_S50000x128_S128x128_S50000x128_1_0_0_1_n_n none a w1)
              (broadcastInDim S50000x128 ![0, 1] bcast_S1x128_S50000x128_0_1 (broadcastInDim S1x128 ![1] bcast_S128_S1x128_1 b1)))
            (broadcastInDim S50000x128 ![] bcast_S_S50000x128 (constant (F := Ideal) S_ .f32 0x00000000#32)) (ix2 r j))
      = Cert.Gin.denseRelu (fun j => a (ix2 r j)) (fun j k => w1 (ix2 j k)) (fun k => b1 (ix1 k)) :=
    funext fun j => dense_apply a w1 b1 r j
  rw [h]

/-- The first layer of the reference. -/
theorem val_main_v34_mlp (x0 : (⟨S50000x128, .f32⟩ : BufTy).Contents (Elt Ideal)) (x1 : (⟨S2x800000, .i32⟩ : BufTy).Contents (Elt Ideal))
    (x2 : (⟨S3x128x128, .f32⟩ : BufTy).Contents (Elt Ideal)) (x3 : (⟨S3x128, .f32⟩ : BufTy).Contents (Elt Ideal))
    (x4 : (⟨S3x128x128, .f32⟩ : BufTy).Contents (Elt Ideal)) (x5 : (⟨S3x128, .f32⟩ : BufTy).Contents (Elt Ideal)) :
    val_main_v34 (F := Ideal) x0 x1 x2 x3 x4 x5
      = Cert.Gin.mlp 50000 (val_main_v14 (F := Ideal) x0 x1) (val_main_v16 (F := Ideal) x2) (fun k => val_main_v19 (F := Ideal) x3 (ix1 k))
          (val_main_v26 (F := Ideal) x4) (fun k => val_main_v29 (F := Ideal) x5 (ix1 k)) := by
  unfold val_main_v34 val_main_v33 val_main_v32 val_main_v31 val_main_v30 val_main_v27 val_main_v24 val_main_v23 val_main_v22 val_main_v21
    val_main_v20 val_main_v17 val_main_cst_2 val_main_cst_1
  exact layer_eq _ _ _ _ _

/-- The second layer of the reference. -/
theorem val_main_v65_mlp (x0 : (⟨S50000x128, .f32⟩ : BufTy).Contents (Elt Ideal)) (x1 : (⟨S2x800000, .i32⟩ : BufTy).Contents (Elt Ideal))
    (x2 : (⟨S3x128x128, .f32⟩ : BufTy).Contents (Elt Ideal)) (x3 : (⟨S3x128, .f32⟩ : BufTy).Contents (Elt Ideal))
    (x4 : (⟨S3x128x128, .f32⟩ : BufTy).Contents (Elt Ideal)) (x5 : (⟨S3x128, .f32⟩ : BufTy).Contents (Elt Ideal)) :
    val_main_v65 (F := Ideal) x0 x1 x2 x3 x4 x5
      = Cert.Gin.mlp 50000 (val_main_v45 (F := Ideal) x0 x1 x2 x3 x4 x5) (val_main_v47 (F := Ideal) x2) (fun k => val_main_v50 (F := Ideal) x3 (ix1 k))
          (val_main_v57 (F := Ideal) x4) (fun k => val_main_v60 (F := Ideal) x5 (ix1 k)) := by
  unfold val_main_v65 val_main_v64 val_main_v63 val_main_v62 val_main_v61 val_main_v58 val_main_v55 val_main_v54 val_main_v53 val_main_v52
    val_main_v51 val_main_v48 val_main_cst_7 val_main_cst_6
  exact layer_eq _ _ _ _ _

/-- The third layer of the reference: the program's result. -/
theorem val_main_v96_mlp (x0 : (⟨S50000x128, .f32⟩ : BufTy).Contents (Elt Ideal)) (x1 : (⟨S2x800000, .i32⟩ : BufTy).Contents (Elt Ideal))
    (x2 : (⟨S3x128x128, .f32⟩ : BufTy).Contents (Elt Ideal)) (x3 : (⟨S3x128, .f32⟩ : BufTy).Contents (Elt Ideal))
    (x4 : (⟨S3x128x128, .f32⟩ : BufTy).Contents (Elt Ideal)) (x5 : (⟨S3x128, .f32⟩ : BufTy).Contents (Elt Ideal)) :
    val_main_v96 (F := Ideal) x0 x1 x2 x3 x4 x5
      = Cert.Gin.mlp 50000 (val_main_v76 (F := Ideal) x0 x1 x2 x3 x4 x5) (val_main_v78 (F := Ideal) x2) (fun k => val_main_v81 (F := Ideal) x3 (ix1 k))
          (val_main_v88 (F := Ideal) x4) (fun k => val_main_v91 (F := Ideal) x5 (ix1 k)) := by
  unfold val_main_v96 val_main_v95 val_main_v94 val_main_v93 val_main_v92 val_main_v89 val_main_v86 val_main_v85 val_main_v84 val_main_v83
    val_main_v82 val_main_v79 val_main_cst_12 val_main_cst_11
  exact layer_eq _ _ _ _ _

end Cert.ReferenceIdeal.GinRef

end
-- ==== Proof.KernelChain.lean ====
/-
  The idealized kernel's result is the reference's result, stage by stage.

  The kernel's program alternates host operations and launches.  Reading the buffers back through the boundaries
  `W1 … W6` of the run: each stretch of host operations computes, from the previous layer's output and the edge
  array, the aggregated features (every node's features plus the sum over its incoming edges of the source's
  features) and cuts the layer's weights and biases out of the stacked arguments — the very operations, on the very
  operands, that the reference performs; each launch then leaves the perceptron of these in its output array, and
  the reference's two matrix products with bias and rectifier are that perceptron too.  So by induction over the
  three layers the launch outputs are the reference's layer outputs, and the last one is the program's result.
-/
import proofs.«118464_j22170621182212_1_alg».proof.Proof.Gen.KernelIdeal.Frame
import proofs.«118464_j22170621182212_1_alg».proof.Proof.Gen.ReferenceIdeal.Read
import proofs.«118464_j22170621182212_1_alg».proof.Proof.GinSpec
import Idealize.ShloMosaic.Lib.ValueLayout
import Idealize.ShloMosaic.Lib.StableHlo.Run
import proofs.«118464_j22170621182212_1_alg».proof.Proof.Region0
import proofs.«118464_j22170621182212_1_alg».proof.Proof.Region1
import proofs.«118464_j22170621182212_1_alg».proof.Proof.Region2
import proofs.«118464_j22170621182212_1_alg».proof.Proof.RefLayers

set_option maxRecDepth 16384

noncomputable section

namespace Cert.KernelIdeal.GinChain

open Cert.KernelIdeal Cert.KernelIdeal.Gen Cert.ReferenceIdeal.Read
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The perceptron is a function of its five operands. -/
theorem mlp_of_eq {n : ℕ} {a a' : (⟨2, ![n, 128]⟩ : Shape).Idx → EReal} {w1 w1' w2 w2' : (⟨2, ![128, 128]⟩ : Shape).Idx → EReal}
    {b1 b1' b2 b2' : Fin 128 → EReal} (ha : a = a') (hw1 : w1 = w1') (hb1 : ∀ k, b1 k = b1' k) (hw2 : w2 = w2') (hb2 : ∀ k, b2 k = b2' k) :
    Cert.Gin.mlp n a w1 b1 w2 b2 = Cert.Gin.mlp n a' w1' b1' w2' b2' := by
  subst ha hw1 hw2
  rw [show b1 = b1' from funext hb1, show b2 = b2' from funext hb2]

/-! ## The first stretch and the first launch -/

set_option maxHeartbeats 4000000 in
/-- After the first stretch: the edges' source nodes. -/
theorem W1_main_v1 : W1 m ρ c (Proc.devRef .tc main_v1) = val_main_v1 (F := Ideal) (m ((c : Thread nD τ).loc main_arg1)) := by
  show StableHlo.after hostOps0 (W0 m ρ c) (Proc.devRef .tc main_v1) = _
  dsimp only [hostOps0]
  after_results <;> rfl

set_option maxHeartbeats 4000000 in
/-- After the first stretch: the edges' target nodes. -/
theorem W1_main_v3 : W1 m ρ c (Proc.devRef .tc main_v3) = val_main_v3 (F := Ideal) (m ((c : Thread nD τ).loc main_arg1)) := by
  show StableHlo.after hostOps0 (W0 m ρ c) (Proc.devRef .tc main_v3) = _
  dsimp only [hostOps0]
  after_results <;> rfl

set_option maxHeartbeats 4000000 in
/-- After the first stretch: argument 2. -/
theorem W1_main_arg2 : W1 m ρ c (Proc.devRef .tc main_arg2) = (m ((c : Thread nD τ).loc main_arg2)) := by
  show StableHlo.after hostOps0 (W0 m ρ c) (Proc.devRef .tc main_arg2) = _
  dsimp only [hostOps0]
  after_results <;> rfl

set_option maxHeartbeats 4000000 in
/-- After the first stretch: argument 3. -/
theorem W1_main_arg3 : W1 m ρ c (Proc.devRef .tc main_arg3) = (m ((c : Thread nD τ).loc main_arg3)) := by
  show StableHlo.after hostOps0 (W0 m ρ c) (Proc.devRef .tc main_arg3) = _
  dsimp only [hostOps0]
  after_results <;> rfl

set_option maxHeartbeats 4000000 in
/-- After the first stretch: argument 4. -/
theorem W1_main_arg4 : W1 m ρ c (Proc.devRef .tc main_arg4) = (m ((c : Thread nD τ).loc main_arg4)) := by
  show StableHlo.after hostOps0 (W0 m ρ c) (Proc.devRef .tc main_arg4) = _
  dsimp only [hostOps0]
  after_results <;> rfl

set_option maxHeartbeats 4000000 in
/-- After the first stretch: argument 5. -/
theorem W1_main_arg5 : W1 m ρ c (Proc.devRef .tc main_arg5) = (m ((c : Thread nD τ).loc main_arg5)) := by
  show StableHlo.after hostOps0 (W0 m ρ c) (Proc.devRef .tc main_arg5) = _
  dsimp only [hostOps0]
  after_results <;> rfl

set_option maxHeartbeats 4000000 in
/-- The first launch's input: every node's features plus the sum, over its incoming edges, of the source's features. -/
theorem W1_agg : W1 m ρ c (Proc.devRef .tc main_v14) = val_main_v14 (F := Ideal) (m ((c : Thread nD τ).loc main_arg0)) (m ((c : Thread nD τ).loc main_arg1)) := by
  show StableHlo.after hostOps0 (W0 m ρ c) (Proc.devRef .tc main_v14) = _
  dsimp only [hostOps0]
  after_results <;> rfl

set_option maxHeartbeats 4000000 in
/-- The first layer's first weight matrix: slice 0 of the stacked weights. -/
theorem W1_w1 : W1 m ρ c (Proc.devRef .tc main_v16) = val_main_v16 (F := Ideal) (m ((c : Thread nD τ).loc main_arg2)) := by
  show StableHlo.after hostOps0 (W0 m ρ c) (Proc.devRef .tc main_v16) = _
  dsimp only [hostOps0]
  after_results <;> rfl

set_option maxHeartbeats 4000000 in
/-- The first layer's second weight matrix. -/
theorem W1_w2 : W1 m ρ c (Proc.devRef .tc main_v20) = val_main_v26 (F := Ideal) (m ((c : Thread nD τ).loc main_arg4)) := by
  show StableHlo.after hostOps0 (W0 m ρ c) (Proc.devRef .tc main_v20) = _
  dsimp only [hostOps0]
  after_results <;> rfl

set_option maxHeartbeats 4000000 in
/-- The first layer's first bias, a row \`[1,128]\` on the kernel's side, at column \`k\`: entry \`k\` of slice 0 of the stacked biases. -/
theorem W1_b1 (k : Fin 128) : (W1 m ρ c (Proc.devRef .tc main_v23) : S1x128.Idx → EReal) (ix2 0 k) = val_main_v19 (F := Ideal) (m ((c : Thread nD τ).loc main_arg3)) (ix1 k) := by
  have e : W1 m ρ c (Proc.devRef .tc main_v23) = shapeCast S1x128 (val_main_v19 (F := Ideal) (m ((c : Thread nD τ).loc main_arg3))) shapeCasts_S128_S1x128 := by
    show StableHlo.after hostOps0 (W0 m ρ c) (Proc.devRef .tc main_v23) = _
    dsimp only [hostOps0]
    after_results <;> rfl
  rw [e]
  exact shapeCast_a_1a_apply _ _ 0 k

set_option maxHeartbeats 4000000 in
/-- The first layer's second bias at column \`k\`. -/
theorem W1_b2 (k : Fin 128) : (W1 m ρ c (Proc.devRef .tc main_v24) : S1x128.Idx → EReal) (ix2 0 k) = val_main_v29 (F := Ideal) (m ((c : Thread nD τ).loc main_arg5)) (ix1 k) := by
  have e : W1 m ρ c (Proc.devRef .tc main_v24) = shapeCast S1x128 (val_main_v29 (F := Ideal) (m ((c : Thread nD τ).loc main_arg5))) shapeCasts_S128_S1x128 := by
    show StableHlo.after hostOps0 (W0 m ρ c) (Proc.devRef .tc main_v24) = _
    dsimp only [hostOps0]
    after_results <;> rfl
  rw [e]
  exact shapeCast_a_1a_apply _ _ 0 k

/-- The first launch leaves the reference's first layer output. -/
theorem W2_out : W2 m ρ c (Proc.devRef .tc main_v25) = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W2_arr m ρ c 5).trans <| (Cert.KernelIdeal.GinRegion.final0 (V1 m ρ) c).trans <|
    (mlp_of_eq (W1_agg m ρ c) (W1_w1 m ρ c) (W1_b1 m ρ c) (W1_w2 m ρ c) (W1_b2 m ρ c)).trans
      (Cert.ReferenceIdeal.GinRef.val_main_v34_mlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm

/-! ## The second stretch and the second launch -/

/-- The first launch does not write the edges' source nodes. -/
theorem W2_main_v1 : W2 m ρ c (Proc.devRef .tc main_v1) = val_main_v1 (F := Ideal) (m ((c : Thread nD τ).loc main_arg1)) :=
  (W2_of_ne m ρ c main_v1 (by decide)).trans (W1_main_v1 m ρ c)

/-- The first launch does not write the edges' target nodes. -/
theorem W2_main_v3 : W2 m ρ c (Proc.devRef .tc main_v3) = val_main_v3 (F := Ideal) (m ((c : Thread nD τ).loc main_arg1)) :=
  (W2_of_ne m ρ c main_v3 (by decide)).trans (W1_main_v3 m ρ c)

/-- The first launch does not write argument 2. -/
theorem W2_main_arg2 : W2 m ρ c (Proc.devRef .tc main_arg2) = (m ((c : Thread nD τ).loc main_arg2)) :=
  (W2_of_ne m ρ c main_arg2 (by decide)).trans (W1_main_arg2 m ρ c)

/-- The first launch does not write argument 3. -/
theorem W2_main_arg3 : W2 m ρ c (Proc.devRef .tc main_arg3) = (m ((c : Thread nD τ).loc main_arg3)) :=
  (W2_of_ne m ρ c main_arg3 (by decide)).trans (W1_main_arg3 m ρ c)

/-- The first launch does not write argument 4. -/
theorem W2_main_arg4 : W2 m ρ c (Proc.devRef .tc main_arg4) = (m ((c : Thread nD τ).loc main_arg4)) :=
  (W2_of_ne m ρ c main_arg4 (by decide)).trans (W1_main_arg4 m ρ c)

/-- The first launch does not write argument 5. -/
theorem W2_main_arg5 : W2 m ρ c (Proc.devRef .tc main_arg5) = (m ((c : Thread nD τ).loc main_arg5)) :=
  (W2_of_ne m ρ c main_arg5 (by decide)).trans (W1_main_arg5 m ρ c)

set_option maxHeartbeats 4000000 in
/-- The second launch's input: the aggregation of the first layer's output. -/
theorem W3_agg : W3 m ρ c (Proc.devRef .tc main_v36) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v36) = _
  dsimp only [hostOps1]
  after_results
  rw [W2_out m ρ c, W2_main_v1 m ρ c, W2_main_v3 m ρ c]
  rfl

set_option maxHeartbeats 4000000 in
/-- The second layer's first weight matrix: slice 1. -/
theorem W3_w1 : W3 m ρ c (Proc.devRef .tc main_v38) = val_main_v47 (F := Ideal) (m ((c : Thread nD τ).loc main_arg2)) := by
  show StableHlo.after hostOps1 (W2 m ρ c) (Proc.devRef .tc main_v38) = _
  dsimp only [hostOps1]
  after_results
  rw [W2_main_arg2 m ρ c]
  rfl

set_option maxHeartbeats 4000000 in
/-- The second layer's second weight matrix. -/
theorem W3_w2 : W3 m ρ c (Proc.devRef .tc main_v42) = val_main_v57 (F := Ideal) (m ((c : Thread nD τ).loc main_arg4)) := by
  show StableHlo.after hostOps1 (W2 m ρ c) (Proc.devRef .tc main_v42) = _
  dsimp only [hostOps1]
  after_results
  rw [W2_main_arg4 m ρ c]
  rfl

set_option maxHeartbeats 4000000 in
/-- The second layer's first bias at column \`k\`. -/
theorem W3_b1 (k : Fin 128) : (W3 m ρ c (Proc.devRef .tc main_v45) : S1x128.Idx → EReal) (ix2 0 k) = val_main_v50 (F := Ideal) (m ((c : Thread nD τ).loc main_arg3)) (ix1 k) := by
  have e : W3 m ρ c (Proc.devRef .tc main_v45) = shapeCast S1x128 (val_main_v50 (F := Ideal) (m ((c : Thread nD τ).loc main_arg3))) shapeCasts_S128_S1x128 := by
    show StableHlo.after hostOps1 (W2 m ρ c) (Proc.devRef .tc main_v45) = _
    dsimp only [hostOps1]
    after_results
    rw [W2_main_arg3 m ρ c]
    rfl
  rw [e]
  exact shapeCast_a_1a_apply _ _ 0 k

set_option maxHeartbeats 4000000 in
/-- The second layer's second bias at column \`k\`. -/
theorem W3_b2 (k : Fin 128) : (W3 m ρ c (Proc.devRef .tc main_v46) : S1x128.Idx → EReal) (ix2 0 k) = val_main_v60 (F := Ideal) (m ((c : Thread nD τ).loc main_arg5)) (ix1 k) := by
  have e : W3 m ρ c (Proc.devRef .tc main_v46) = shapeCast S1x128 (val_main_v60 (F := Ideal) (m ((c : Thread nD τ).loc main_arg5))) shapeCasts_S128_S1x128 := by
    show StableHlo.after hostOps1 (W2 m ρ c) (Proc.devRef .tc main_v46) = _
    dsimp only [hostOps1]
    after_results
    rw [W2_main_arg5 m ρ c]
    rfl
  rw [e]
  exact shapeCast_a_1a_apply _ _ 0 k

/-- The second launch leaves the reference's second layer output. -/
theorem W4_out : W4 m ρ c (Proc.devRef .tc main_v47) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W4_arr m ρ c 5).trans <| (Cert.KernelIdeal.GinRegion.final1 (V3 m ρ) c).trans <|
    (mlp_of_eq (W3_agg m ρ c) (W3_w1 m ρ c) (W3_b1 m ρ c) (W3_w2 m ρ c) (W3_b2 m ρ c)).trans
      (Cert.ReferenceIdeal.GinRef.val_main_v65_mlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm

/-! ## The third stretch and the third launch -/

set_option maxHeartbeats 4000000 in
/-- The second stretch and the second launch do not write the edges' source nodes. -/
theorem W4_main_v1 : W4 m ρ c (Proc.devRef .tc main_v1) = val_main_v1 (F := Ideal) (m ((c : Thread nD τ).loc main_arg1)) := by
  refine (W4_of_ne m ρ c main_v1 (by decide)).trans ?_
  show StableHlo.after hostOps1 (W2 m ρ c) (Proc.devRef .tc main_v1) = _
  dsimp only [hostOps1]
  after_results
  exact W2_main_v1 m ρ c

set_option maxHeartbeats 4000000 in
/-- The second stretch and the second launch do not write the edges' target nodes. -/
theorem W4_main_v3 : W4 m ρ c (Proc.devRef .tc main_v3) = val_main_v3 (F := Ideal) (m ((c : Thread nD τ).loc main_arg1)) := by
  refine (W4_of_ne m ρ c main_v3 (by decide)).trans ?_
  show StableHlo.after hostOps1 (W2 m ρ c) (Proc.devRef .tc main_v3) = _
  dsimp only [hostOps1]
  after_results
  exact W2_main_v3 m ρ c

set_option maxHeartbeats 4000000 in
/-- The second stretch and the second launch do not write argument 2. -/
theorem W4_main_arg2 : W4 m ρ c (Proc.devRef .tc main_arg2) = (m ((c : Thread nD τ).loc main_arg2)) := by
  refine (W4_of_ne m ρ c main_arg2 (by decide)).trans ?_
  show StableHlo.after hostOps1 (W2 m ρ c) (Proc.devRef .tc main_arg2) = _
  dsimp only [hostOps1]
  after_results
  exact W2_main_arg2 m ρ c

set_option maxHeartbeats 4000000 in
/-- The second stretch and the second launch do not write argument 3. -/
theorem W4_main_arg3 : W4 m ρ c (Proc.devRef .tc main_arg3) = (m ((c : Thread nD τ).loc main_arg3)) := by
  refine (W4_of_ne m ρ c main_arg3 (by decide)).trans ?_
  show StableHlo.after hostOps1 (W2 m ρ c) (Proc.devRef .tc main_arg3) = _
  dsimp only [hostOps1]
  after_results
  exact W2_main_arg3 m ρ c

set_option maxHeartbeats 4000000 in
/-- The second stretch and the second launch do not write argument 4. -/
theorem W4_main_arg4 : W4 m ρ c (Proc.devRef .tc main_arg4) = (m ((c : Thread nD τ).loc main_arg4)) := by
  refine (W4_of_ne m ρ c main_arg4 (by decide)).trans ?_
  show StableHlo.after hostOps1 (W2 m ρ c) (Proc.devRef .tc main_arg4) = _
  dsimp only [hostOps1]
  after_results
  exact W2_main_arg4 m ρ c

set_option maxHeartbeats 4000000 in
/-- The second stretch and the second launch do not write argument 5. -/
theorem W4_main_arg5 : W4 m ρ c (Proc.devRef .tc main_arg5) = (m ((c : Thread nD τ).loc main_arg5)) := by
  refine (W4_of_ne m ρ c main_arg5 (by decide)).trans ?_
  show StableHlo.after hostOps1 (W2 m ρ c) (Proc.devRef .tc main_arg5) = _
  dsimp only [hostOps1]
  after_results
  exact W2_main_arg5 m ρ c

set_option maxHeartbeats 4000000 in
/-- The third launch's input: the aggregation of the second layer's output. -/
theorem W5_agg : W5 m ρ c (Proc.devRef .tc main_v58) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W4 m ρ c) (Proc.devRef .tc main_v58) = _
  dsimp only [hostOps2]
  after_results
  rw [W4_out m ρ c, W4_main_v1 m ρ c, W4_main_v3 m ρ c]
  rfl

set_option maxHeartbeats 4000000 in
/-- The third layer's first weight matrix: slice 2. -/
theorem W5_w1 : W5 m ρ c (Proc.devRef .tc main_v60) = val_main_v78 (F := Ideal) (m ((c : Thread nD τ).loc main_arg2)) := by
  show StableHlo.after hostOps2 (W4 m ρ c) (Proc.devRef .tc main_v60) = _
  dsimp only [hostOps2]
  after_results
  rw [W4_main_arg2 m ρ c]
  rfl

set_option maxHeartbeats 4000000 in
/-- The third layer's second weight matrix. -/
theorem W5_w2 : W5 m ρ c (Proc.devRef .tc main_v64) = val_main_v88 (F := Ideal) (m ((c : Thread nD τ).loc main_arg4)) := by
  show StableHlo.after hostOps2 (W4 m ρ c) (Proc.devRef .tc main_v64) = _
  dsimp only [hostOps2]
  after_results
  rw [W4_main_arg4 m ρ c]
  rfl

set_option maxHeartbeats 4000000 in
/-- The third layer's first bias at column \`k\`. -/
theorem W5_b1 (k : Fin 128) : (W5 m ρ c (Proc.devRef .tc main_v67) : S1x128.Idx → EReal) (ix2 0 k) = val_main_v81 (F := Ideal) (m ((c : Thread nD τ).loc main_arg3)) (ix1 k) := by
  have e : W5 m ρ c (Proc.devRef .tc main_v67) = shapeCast S1x128 (val_main_v81 (F := Ideal) (m ((c : Thread nD τ).loc main_arg3))) shapeCasts_S128_S1x128 := by
    show StableHlo.after hostOps2 (W4 m ρ c) (Proc.devRef .tc main_v67) = _
    dsimp only [hostOps2]
    after_results
    rw [W4_main_arg3 m ρ c]
    rfl
  rw [e]
  exact shapeCast_a_1a_apply _ _ 0 k

set_option maxHeartbeats 4000000 in
/-- The third layer's second bias at column \`k\`. -/
theorem W5_b2 (k : Fin 128) : (W5 m ρ c (Proc.devRef .tc main_v68) : S1x128.Idx → EReal) (ix2 0 k) = val_main_v91 (F := Ideal) (m ((c : Thread nD τ).loc main_arg5)) (ix1 k) := by
  have e : W5 m ρ c (Proc.devRef .tc main_v68) = shapeCast S1x128 (val_main_v91 (F := Ideal) (m ((c : Thread nD τ).loc main_arg5))) shapeCasts_S128_S1x128 := by
    show StableHlo.after hostOps2 (W4 m ρ c) (Proc.devRef .tc main_v68) = _
    dsimp only [hostOps2]
    after_results
    rw [W4_main_arg5 m ρ c]
    rfl
  rw [e]
  exact shapeCast_a_1a_apply _ _ 0 k

/-- The third launch leaves the reference's result. -/
theorem W6_out : W6 m ρ c (Proc.devRef .tc main_v69) = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W6_arr m ρ c 5).trans <| (Cert.KernelIdeal.GinRegion.final2 (V5 m ρ) c).trans <|
    (mlp_of_eq (W5_agg m ρ c) (W5_w1 m ρ c) (W5_b1 m ρ c) (W5_w2 m ρ c) (W5_b2 m ρ c)).trans
      (Cert.ReferenceIdeal.GinRef.val_main_v96_mlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm

end Cert.KernelIdeal.GinChain

end
-- ==== Proof.lean ====
/-
  Three graph-isomorphism layers on the accelerator against the same three layers in plain array code: the two
  programs compute one function on extended reals.

  A layer first aggregates — every node's 128 features plus the sum, over its incoming edges, of the features of the
  edge's source — and then applies a two-layer perceptron to every row: `relu (relu (a · W₁ + b₁) · W₂ + b₂)`.
  Both programs aggregate by the same gather, scatter-add and add on the host.  The perceptron is where they differ:
  the kernel computes it on blocks of 5000 rows, narrowing its operands to bf16 before each product and accumulating
  into a zero; the reference takes two whole matrix products in f32.  On extended reals a change of format is the
  identity, a product into a zero accumulator is the plain sum over the contracted axis, and a block of rows of the
  result depends only on the same rows of the input, so both are `Cert.Gin.mlp` of the same operands
  (`GinRegion.final0 … final2` for the kernel's launches, `GinRef.val_main_v34_mlp …` for the reference).  By induction
  over the three layers the kernel's launch outputs are the reference's layer outputs (`GinChain.W6_out`).  No
  cancellation, distribution or other law sensitive to infinities is used: the two sides are the same sums of the
  same products in the same order, so the finiteness of the inputs is never opened.

  The three frame claims are the generated runs; the idealization rewrote nothing, so `preserves` is trivial.
-/
import proofs.«118464_j22170621182212_1_alg».proof.Defs
import proofs.«118464_j22170621182212_1_alg».proof.Proof.Gen.Kernel
import proofs.«118464_j22170621182212_1_alg».proof.Proof.Gen.Kernel.Frame
import proofs.«118464_j22170621182212_1_alg».proof.Proof.Gen.KernelIdeal
import proofs.«118464_j22170621182212_1_alg».proof.Proof.Gen.KernelIdeal.Frame
import proofs.«118464_j22170621182212_1_alg».proof.Proof.Gen.ReferenceIdeal
import proofs.«118464_j22170621182212_1_alg».proof.Proof.Gen.ReferenceIdeal.Run
import proofs.«118464_j22170621182212_1_alg».proof.Proof.Gen.ReferenceIdeal.Read
import proofs.«118464_j22170621182212_1_alg».proof.Proof.Gen.Pre_finite_inputs
import proofs.«118464_j22170621182212_1_alg».proof.Proof.KernelRun
import proofs.«118464_j22170621182212_1_alg».proof.Proof.KernelChain
import Idealize.ShloMosaic.Adequacy
import Idealize.ShloMosaic.Init

noncomputable section

namespace Cert.Proof

open Idealize.ShloMosaic Idealize.SL.Sem

/-- The kernel as printed runs to the end without a fault and leaves its arguments alone. -/
theorem frame_kernel : Cert.frame_Kernel := fun m ρ _ => Cert.Kernel.Gen.frame m ρ

/-- So does the kernel read on extended reals. -/
theorem frame_kernelIdeal : Cert.frame_KernelIdeal := fun m ρ _ => Cert.KernelIdeal.Gen.frame m ρ

/-- The reference's run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on extended reals rewrote no operation. -/
theorem preserves : Cert.preserves_Kernel_KernelIdeal := trivial

/-- From memories that agree on the six arguments both programs end with the reference's third layer output of those
    arguments in their result arrays. -/
theorem algebraic : Cert.algebraic_KernelIdeal_ReferenceIdeal := by
  intro m ρ m' ρ' _ hagree
  refine ⟨fun c => Cert.ReferenceIdeal.Read.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.GinChain.W6_out m ρ c), (h c).2⟩)
      (Cert.KernelIdeal.GinRun.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v96_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
